-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x2 : Shape := ⟨2, ![1048576, 2]⟩
abbrev S512x512x64 : Shape := ⟨3, ![512, 512, 64]⟩
abbrev S64x256 : Shape := ⟨2, ![64, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S_ : Shape := ⟨0, ![]⟩

class Facts : Prop where
  bcast_S_S1048576x2 : S_.BroadcastsInDim S1048576x2 (![] : Fin 0 → Fin S1048576x2.rank)
  reducesTo_S1048576x2_S_d0_1 : S1048576x2.ReducesTo [0, 1] S_
  h_S_ : 0 < S_.numel
  bcast_S_S512x512x64 : S_.BroadcastsInDim S512x512x64 (![] : Fin 0 → Fin S512x512x64.rank)
  reducesTo_S512x512x64_S_d0_1_2 : S512x512x64.ReducesTo [0, 1, 2] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S3 .f32) (main_v33 : IVec S_ 1) : IVec S_ 1 :=
  let main_v34 : FVec F S3 .f32 := Host.absf main_arg7
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x3 .f32) (main_arg7 : FVec F S3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x3 .f32 := Host.absf main_arg6
  let main_cst_10 : FVec F S_ .f32 := constant S_ .f32 0x7F800000#32
  let main_v30 : FVec F S256x3 .f32 := broadcastInDim S256x3 ![] bcast_S_S256x3 main_cst_10
  let main_v31 : IVec S256x3 1 := cmpf .olt main_v29 main_v30
  let main_c_11 : IVec S_ 1 := constantI S_ 1 1#1
  let main_v32 : IVec S_ 1 := (fun x v => Host.reduce IntOp.andi x v reducesTo_S256x3_S_d0_1 h_S_) main_v31 main_c_11
  let main_v33 : IVec S_ 1 := andi main_v28 main_v32
  fn_part2 (F := F) main_arg7 main_v33

def fn {F : FTy → Type} [FloatOps F] (main_arg0 : FVec F S1048576x2 .f32) (main_arg1 : FVec F S512x512x64 .f32) (main_arg2 : FVec F S64x256 .f32) (main_arg3 : FVec F S256 .f32) (main_arg4 : FVec F S256x256 .f32) (main_arg5 : FVec F S256 .f32) (main_arg6 : FVec F S256x3 .f32) (main_arg7 : FVec F S3 .f32) : IVec S_ 1 :=
  let main_v0 : FVec F S1048576x2 .f32 := Host.absf main_arg0
  let main_cst : FVec F S_ .f32 := constant S_ .f32 0x7F800000#32
  let main_v1 : FVec F S1048576x2 .f32 := broadcastInDim S1048576x2 ![] bcast_S_S1048576x2 main_cst
  let main_v2 : IVec S1048576x2 1 := cmpf .olt main_v0 main_v1
  let main_c : IVec S_ 1 := constantI S_ 1 1#1
  let main_v3 : IVec S_ 1 := (fun x v => Host.reduce IntOp.andi x v reducesTo_S1048576x2_S_d0_1 h_S_) main_v2 main_c
  let main_v4 : FVec F S512x512x64 .f32 := Host.absf main_arg1
  let main_cst_0 : FVec F S_ .f32 := constant S_ .f32 0x7F800000#32
  let main_v5 : FVec F S512x512x64 .f32 := broadcastInDim S512x512x64 ![] bcast_S_S512x512x64 main_cst_0
  let main_v6 : IVec S512x512x64 1 := cmpf .olt main_v4 main_v5
  let main_c_1 : IVec S_ 1 := constantI S_ 1 1#1
  let main_v7 : IVec S_ 1 := (fun x v => Host.reduce IntOp.andi x v reducesTo_S512x512x64_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S1048576x2 : Shape := ⟨2, ![1048576, 2]⟩
abbrev S512x512x64 : Shape := ⟨3, ![512, 512, 64]⟩
abbrev S64x256 : Shape := ⟨2, ![64, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S1048576x1 : Shape := ⟨2, ![1048576, 1]⟩
abbrev S1048576 : Shape := ⟨1, ![1048576]⟩
abbrev S_ : Shape := ⟨0, ![]⟩
abbrev S1048576x64 : Shape := ⟨2, ![1048576, 64]⟩
abbrev S1x256 : Shape := ⟨2, ![1, 256]⟩
abbrev S1x3 : Shape := ⟨2, ![1, 3]⟩
abbrev S1048576x3 : Shape := ⟨2, ![1048576, 3]⟩
abbrev S8192x64 : Shape := ⟨2, ![8192, 64]⟩
abbrev S8192x3 : Shape := ⟨2, ![8192, 3]⟩
abbrev S8192x256 : Shape := ⟨2, ![8192, 256]⟩

abbrev nBuf : Space → Nat
  | .hbm => 177
  | .vmem => 10
  | .smem => 0
  | _ => 0

abbrev hbmTy0_0 (i : Nat) : BufTy := match i % 128 with
  | 0 => ⟨S1048576x2, .f32⟩
  | 1 => ⟨S512x512x64, .f32⟩
  | 2 => ⟨S64x256, .f32⟩
  | 3 => ⟨S256, .f32⟩
  | 4 => ⟨S256x256, .f32⟩
  | 5 => ⟨S256, .f32⟩
  | 6 => ⟨S256x3, .f32⟩
  | 7 => ⟨S3, .f32⟩
  | 8 => ⟨S512x512x64, .bf16⟩
  | 9 => ⟨S1048576x1, .f32⟩
  | 10 => ⟨S1048576, .f32⟩
  | 11 => ⟨S_, .f32⟩
  | 12 => ⟨S1048576, .f32⟩
  | 13 => ⟨S1048576, .f32⟩
  | 14 => ⟨S_, .f32⟩
  | 15 => ⟨S1048576, .f32⟩
  | 16 => ⟨S1048576, .f32⟩
  | 17 => ⟨S_, .f32⟩
  | 18 => ⟨S1048576, .f32⟩
  | 19 => ⟨S1048576, .f32⟩
  | 20 => ⟨S1048576x1, .f32⟩
  | 21 => ⟨S1048576, .f32⟩
  | 22 => ⟨S_, .f32⟩
  | 23 => ⟨S1048576, .f32⟩
  | 24 => ⟨S1048576, .f32⟩
  | 25 => ⟨S_, .f32⟩
  | 26 => ⟨S1048576, .f32⟩
  | 27 => ⟨S1048576, .f32⟩
  | 28 => ⟨S_, .f32⟩
  | 29 => ⟨S1048576, .f32⟩
  | 30 => ⟨S1048576, .f32⟩
  | 31 => ⟨S1048576, .f32⟩
  | 32 => ⟨S_, .i32⟩
  | 33 => ⟨S_, .i32⟩
  | 34 => ⟨S_, .f32⟩
  | 35 => ⟨S1048576, .f32⟩
  | 36 => ⟨S1048576, .f32⟩
  | 37 => ⟨S_, .f32⟩
  | 38 => ⟨S1048576, .f32⟩
  | 39 => ⟨S1048576, .f32⟩
  | 40 => ⟨S1048576, .i32⟩
  | 41 => ⟨S1048576, .f32⟩
  | 42 => ⟨S_, .i32⟩
  | 43 => ⟨S_, .i32⟩
  | 44 => ⟨S_, .f32⟩
  | 45 => ⟨S1048576, .f32⟩
  | 46 => ⟨S1048576, .f32⟩
  | 47 => ⟨S_, .f32⟩
  | 48 => ⟨S1048576, .f32⟩
  | 49 => ⟨S1048576, .f32⟩
  | 50 => ⟨S1048576, .i32⟩
  | 51 => ⟨S1048576, .f32⟩
  | 52 => ⟨S1048576, .f32⟩
  | 53 => ⟨S1048576x1, .f32⟩
  | 54 => ⟨S1048576, .f32⟩
  | 55 => ⟨S1048576, .f32⟩
  | 56 => ⟨S1048576x1, .f32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i32⟩
  | 63 => ⟨S1048576, .i32⟩
  | 64 => ⟨S_, .i32⟩
  | 65 => ⟨S1048576, .i32⟩
  | 66 => ⟨S1048576, .i1⟩
  | 67 => ⟨S_, .i32⟩
  | 68 => ⟨S1048576, .i32⟩
  | 69 => ⟨S1048576, .i32⟩
  | 70 => ⟨S1048576, .i32⟩
  | 71 => ⟨S1048576x1, .i32⟩
  | 72 => ⟨S1048576x1, .i32⟩
  | 73 => ⟨S1048576x2, .i32⟩
  | 74 => ⟨S1048576x64, .bf16⟩
  | 75 => ⟨S1048576x64, .f32⟩
  | 76 => ⟨S_, .i32⟩
  | 77 => ⟨S1048576, .i32⟩
  | 78 => ⟨S1048576, .i32⟩
  | 79 => ⟨S_, .i32⟩
  | 80 => ⟨S1048576, .i32⟩
  | 81 => ⟨S1048576, .i1⟩
  | 82 => ⟨S_, .i32⟩
  | 83 => ⟨S1048576, .i32⟩
  | 84 => ⟨S1048576, .i32⟩
  | 85 => ⟨S1048576, .i32⟩
  | 86 => ⟨S_, .i32⟩
  | 87 => ⟨S1048576, .i32⟩
  | 88 => ⟨S1048576, .i1⟩
  | 89 => ⟨S_, .i32⟩
  | 90 => ⟨S1048576, .i32⟩
  | 91 => ⟨S1048576, .i32⟩
  | 92 => ⟨S1048576, .i32⟩
  | 93 => ⟨S1048576x1, .i32⟩
  | 94 => ⟨S1048576x1, .i32⟩
  | 95 => ⟨S1048576x2, .i32⟩
  | 96 => ⟨S1048576x64, .bf16⟩
  | 97 => ⟨S1048576x64, .f32⟩
  | 98 => ⟨S_, .i32⟩
  | 99 => ⟨S1048576, .i32⟩
  | 100 => ⟨S1048576, .i32⟩
  | 101 => ⟨S_, .i32⟩
  | 102 => ⟨S1048576, .i32⟩
  | 103 => ⟨S1048576, .i1⟩
  | 104 => ⟨S_, .i32⟩
  | 105 => ⟨S1048576, .i32⟩
  | 106 => ⟨S1048576, .i32⟩
  | 107 => ⟨S1048576, .i32⟩
  | 108 => ⟨S_, .i32⟩
  | 109 => ⟨S1048576, .i32⟩
  | 110 => ⟨S1048576, .i1⟩
  | 111 => ⟨S_, .i32⟩
  | 112 => ⟨S1048576, .i32⟩
  | 113 => ⟨S1048576, .i32⟩
  | 114 => ⟨S1048576, .i32⟩
  | 115 => ⟨S1048576x1, .i32⟩
  | 116 => ⟨S1048576x1, .i32⟩
  | 117 => ⟨S1048576x2, .i32⟩
  | 118 => ⟨S1048576x64, .bf16⟩
  | 119 => ⟨S1048576x64, .f32⟩
  | 120 => ⟨S_, .i32⟩
  | 121 => ⟨S1048576, .i32⟩
  | 122 => ⟨S1048576, .i32⟩
  | 123 => ⟨S_, .i32⟩
  | 124 => ⟨S1048576, .i32⟩
  | 125 => ⟨S1048576, .i32⟩
  | 126 => ⟨S_, .i32⟩
  | 127 => ⟨S1048576, .i32⟩
  | _ => ⟨S1048576x2, .f32⟩

abbrev hbmTy0_1 (i : Nat) : BufTy := match i % 128 with
  | 0 => ⟨S1048576, .i1⟩
  | 1 => ⟨S_, .i32⟩
  | 2 => ⟨S1048576, .i32⟩
  | 3 => ⟨S1048576, .i32⟩
  | 4 => ⟨S1048576, .i32⟩
  | 5 => ⟨S_, .i32⟩
  | 6 => ⟨S1048576, .i32⟩
  | 7 => ⟨S1048576, .i1⟩
  | 8 => ⟨S_, .i32⟩
  | 9 => ⟨S1048576, .i32⟩
  | 10 => ⟨S1048576, .i32⟩
  | 11 => ⟨S1048576, .i32⟩
  | 12 => ⟨S1048576x1, .i32⟩
  | 13 => ⟨S1048576x1, .i32⟩
  | 14 => ⟨S1048576x2, .i32⟩
  | 15 => ⟨S1048576x64, .bf16⟩
  | 16 => ⟨S1048576x64, .f32⟩
  | 17 => ⟨S_, .f32⟩
  | 18 => ⟨S1048576x1, .f32⟩
  | 19 => ⟨S1048576x1, .f32⟩
  | 20 => ⟨S1048576x64, .f32⟩
  | 21 => ⟨S1048576x64, .f32⟩
  | 22 => ⟨S1048576x64, .f32⟩
  | 23 => ⟨S1048576x64, .f32⟩
  | 24 => ⟨S1048576x64, .f32⟩
  | 25 => ⟨S_, .f32⟩
  | 26 => ⟨S1048576x1, .f32⟩
  | 27 => ⟨S1048576x1, .f32⟩
  | 28 => ⟨S1048576x64, .f32⟩
  | 29 => ⟨S1048576x64, .f32⟩
  | 30 => ⟨S1048576x64, .f32⟩
  | 31 => ⟨S1048576x64, .f32⟩
  | 32 => ⟨S1048576x64, .f32⟩
  | 33 => ⟨S_, .f32⟩
  | 34 => ⟨S1048576x1, .f32⟩
  | 35 => ⟨S1048576x1, .f32⟩
  | 36 => ⟨S1048576x64, .f32⟩
  | 37 => ⟨S1048576x64, .f32⟩
  | 38 => ⟨S1048576x64, .f32⟩
  | 39 => ⟨S1048576x64, .f32⟩
  | 40 => ⟨S1048576x64, .f32⟩
  | 41 => ⟨S1048576x64, .bf16⟩
  | 42 => ⟨S64x256, .bf16⟩
  | 43 => ⟨S256x256, .bf16⟩
  | 44 => ⟨S256x3, .bf16⟩
  | 45 => ⟨S1x256, .f32⟩
  | 46 => ⟨S1x256, .f32⟩
  | 47 => ⟨S1x3, .f32⟩
  | 48 => ⟨S1048576x3, .f32⟩
  | _ => ⟨S1048576x2, .f32⟩

abbrev hbmTy (i : Nat) : BufTy := match i / 128 with
  | 0 => hbmTy0_0 i
  | 1 => hbmTy0_1 i
  | _ => ⟨S1048576x2, .f32⟩

abbrev bufTy : (tb : Table) → Fin (tcTables nBuf tb) → BufTy
  | .hbm, ⟨i, _⟩ => hbmTy i
  | .local _ .vmem, ⟨0, _⟩ => ⟨S8192x64, .bf16⟩
  | .local _ .vmem, ⟨1, _⟩ => ⟨S8192x64, .bf16⟩
  | .local _ .vmem, ⟨2, _⟩ => ⟨S64x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x3, .bf16⟩
  | .local _ .vmem, ⟨7, _⟩ => ⟨S1x3, .f32⟩
  | .local _ .vmem, ⟨8, _⟩ => ⟨S8192x3, .f32⟩
  | .local _ .vmem, ⟨9, _⟩ => ⟨S8192x3, .f32⟩
  | _, _ => ⟨S1048576x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_cst_2 : Ref sig .tc := ⟨.hbm, 22, rfl⟩
abbrev main_call0_v11 : Ref sig .tc := ⟨.hbm, 23, rfl⟩
abbrev main_call0_v12 : Ref sig .tc := ⟨.hbm, 24, rfl⟩
abbrev main_call0_cst_3 : Ref sig .tc := ⟨.hbm, 25, rfl⟩
abbrev main_call0_v13 : Ref sig .tc := ⟨.hbm, 26, rfl⟩
abbrev main_call0_v14 : Ref sig .tc := ⟨.hbm, 27, rfl⟩
abbrev main_call0_cst_4 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_c : Ref sig .tc := ⟨.hbm, 32, rfl⟩
abbrev main_call0_c_5 : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_v18 : Ref sig .tc := ⟨.hbm, 39, rfl⟩
abbrev main_call0_v19 : Ref sig .tc := ⟨.hbm, 40, rfl⟩
abbrev main_call0_v20 : Ref sig .tc := ⟨.hbm, 41, rfl⟩
abbrev main_call0_c_6 : Ref sig .tc := ⟨.hbm, 42, rfl⟩
abbrev main_call0_c_7 : Ref sig .tc := ⟨.hbm, 43, rfl⟩
abbrev main_call0_call1_v0 : Ref sig .tc := ⟨.hbm, 44, rfl⟩
abbrev main_call0_call1_v1 : Ref sig .tc := ⟨.hbm, 45, rfl⟩
abbrev main_call0_call1_v2 : Ref sig .tc := ⟨.hbm, 46, rfl⟩
abbrev main_call0_call1_v3 : Ref sig .tc := ⟨.hbm, 47, rfl⟩
abbrev main_call0_call1_v4 : Ref sig .tc := ⟨.hbm, 48, rfl⟩
abbrev main_call0_v21 : Ref sig .tc := ⟨.hbm, 49, rfl⟩
abbrev main_call0_v22 : Ref sig .tc := ⟨.hbm, 50, rfl⟩
abbrev main_call0_v23 : Ref sig .tc := ⟨.hbm, 51, rfl⟩
abbrev main_call0_v24 : Ref sig .tc := ⟨.hbm, 52, rfl⟩
abbrev main_call0_v25 : Ref sig .tc := ⟨.hbm, 53, rfl⟩
abbrev main_call0_v26 : Ref sig .tc := ⟨.hbm, 54, rfl⟩
abbrev main_call0_v27 : Ref sig .tc := ⟨.hbm, 55, rfl⟩
abbrev main_call0_v28 : Ref sig .tc := ⟨.hbm, 56, rfl⟩
abbrev main_call0_c_8 : Ref sig .tc := ⟨.hbm, 57, rfl⟩
abbrev main_call0_v29 : Ref sig .tc := ⟨.hbm, 58, rfl⟩
abbrev main_call0_v30 : Ref sig .tc := ⟨.hbm, 59, rfl⟩
abbrev main_call0_c_9 : Ref sig .tc := ⟨.hbm, 60, rfl⟩
abbrev main_call0_v31 : Ref sig .tc := ⟨.hbm, 61, rfl⟩
abbrev main_call0_v32 : Ref sig .tc := ⟨.hbm, 62, rfl⟩
abbrev main_call0_v33 : Ref sig .tc := ⟨.hbm, 63, rfl⟩
abbrev main_call0_c_10 : Ref sig .tc := ⟨.hbm, 64, rfl⟩
abbrev main_call0_v34 : Ref sig .tc := ⟨.hbm, 65, rfl⟩
abbrev main_call0_v35 : Ref sig .tc := ⟨.hbm, 66, rfl⟩
abbrev main_call0_c_11 : Ref sig .tc := ⟨.hbm, 67, rfl⟩
abbrev main_call0_v36 : Ref sig .tc := ⟨.hbm, 68, rfl⟩
abbrev main_call0_v37 : Ref sig .tc := ⟨.hbm, 69, rfl⟩
abbrev main_call0_v38 : Ref sig .tc := ⟨.hbm, 70, rfl⟩
abbrev main_call0_v39 : Ref sig .tc := ⟨.hbm, 71, rfl⟩
abbrev main_call0_v40 : Ref sig .tc := ⟨.hbm, 72, rfl⟩
abbrev main_call0_v41 : Ref sig .tc := ⟨.hbm, 73, rfl⟩
abbrev main_call0_v42 : Ref sig .tc := ⟨.hbm, 74, rfl⟩
abbrev main_call0_v43 : Ref sig .tc := ⟨.hbm, 75, rfl⟩
abbrev main_call0_c_12 : Ref sig .tc := ⟨.hbm, 76, rfl⟩
abbrev main_call0_v44 : Ref sig .tc := ⟨.hbm, 77, rfl⟩
abbrev main_call0_v45 : Ref sig .tc := ⟨.hbm, 78, rfl⟩
abbrev main_call0_c_13 : Ref sig .tc := ⟨.hbm, 79, rfl⟩
abbrev main_call0_v46 : Ref sig .tc := ⟨.hbm, 80, rfl⟩
abbrev main_call0_v47 : Ref sig .tc := ⟨.hbm, 81, rfl⟩
abbrev main_call0_c_14 : Ref sig .tc := ⟨.hbm, 82, rfl⟩
abbrev main_call0_v48 : Ref sig .tc := ⟨.hbm, 83, rfl⟩
abbrev main_call0_v49 : Ref sig .tc := ⟨.hbm, 84, rfl⟩
abbrev main_call0_v50 : Ref sig .tc := ⟨.hbm, 85, rfl⟩
abbrev main_call0_c_15 : Ref sig .tc := ⟨.hbm, 86, rfl⟩
abbrev main_call0_v51 : Ref sig .tc := ⟨.hbm, 87, rfl⟩
abbrev main_call0_v52 : Ref sig .tc := ⟨.hbm, 88, rfl⟩
abbrev main_call0_c_16 : Ref sig .tc := ⟨.hbm, 89, rfl⟩
abbrev main_call0_v53 : Ref sig .tc := ⟨.hbm, 90, rfl⟩
abbrev main_call0_v54 : Ref sig .tc := ⟨.hbm, 91, rfl⟩
abbrev main_call0_v55 : Ref sig .tc := ⟨.hbm, 92, rfl⟩
abbrev main_call0_v56 : Ref sig .tc := ⟨.hbm, 93, rfl⟩
abbrev main_call0_v57 : Ref sig .tc := ⟨.hbm, 94, rfl⟩
abbrev main_call0_v58 : Ref sig .tc := ⟨.hbm, 95, rfl⟩
abbrev main_call0_v59 : Ref sig .tc := ⟨.hbm, 96, rfl⟩
abbrev main_call0_v60 : Ref sig .tc := ⟨.hbm, 97, rfl⟩
abbrev main_call0_c_17 : Ref sig .tc := ⟨.hbm, 98, rfl⟩
abbrev main_call0_v61 : Ref sig .tc := ⟨.hbm, 99, rfl⟩
abbrev main_call0_v62 : Ref sig .tc := ⟨.hbm, 100, rfl⟩
abbrev main_call0_c_18 : Ref sig .tc := ⟨.hbm, 101, rfl⟩
abbrev main_call0_v63 : Ref sig .tc := ⟨.hbm, 102, rfl⟩
abbrev main_call0_v64 : Ref sig .tc := ⟨.hbm, 103, rfl⟩
abbrev main_call0_c_19 : Ref sig .tc := ⟨.hbm, 104, rfl⟩
abbrev main_call0_v65 : Ref sig .tc := ⟨.hbm, 105, rfl⟩
abbrev main_call0_v66 : Ref sig .tc := ⟨.hbm, 106, rfl⟩
abbrev main_call0_v67 : Ref sig .tc := ⟨.hbm, 107, rfl⟩
abbrev main_call0_c_20 : Ref sig .tc := ⟨.hbm, 108, rfl⟩
abbrev main_call0_v68 : Ref sig .tc := ⟨.hbm, 109, rfl⟩
abbrev main_call0_v69 : Ref sig .tc := ⟨.hbm, 110, rfl⟩
abbrev main_call0_c_21 : Ref sig .tc := ⟨.hbm, 111, rfl⟩
abbrev main_call0_v70 : Ref sig .tc := ⟨.hbm, 112, rfl⟩
abbrev main_call0_v71 : Ref sig .tc := ⟨.hbm, 113, rfl⟩
abbrev main_call0_v72 : Ref sig .tc := ⟨.hbm, 114, rfl⟩
abbrev main_call0_v73 : Ref sig .tc := ⟨.hbm, 115, rfl⟩
abbrev main_call0_v74 : Ref sig .tc := ⟨.hbm, 116, rfl⟩
abbrev main_call0_v75 : Ref sig .tc := ⟨.hbm, 117, rfl⟩
abbrev main_call0_v76 : Ref sig .tc := ⟨.hbm, 118, rfl⟩
abbrev main_call0_v77 : Ref sig .tc := ⟨.hbm, 119, rfl⟩
abbrev main_call0_c_22 : Ref sig .tc := ⟨.hbm, 120, rfl⟩
abbrev main_call0_v78 : Ref sig .tc := ⟨.hbm, 121, rfl⟩
abbrev main_call0_v79 : Ref sig .tc := ⟨.hbm, 122, rfl⟩
abbrev main_call0_c_23 : Ref sig .tc := ⟨.hbm, 123, rfl⟩
abbrev main_call0_v80 : Ref sig .tc := ⟨.hbm, 124, rfl⟩
abbrev main_call0_v81 : Ref sig .tc := ⟨.hbm, 125, rfl⟩
abbrev main_call0_c_24 : Ref sig .tc := ⟨.hbm, 126, rfl⟩
abbrev main_call0_v82 : Ref sig .tc := ⟨.hbm, 127, rfl⟩
abbrev main_call0_v83 : Ref sig .tc := ⟨.hbm, 128, rfl⟩
abbrev main_call0_c_25 : Ref sig .tc := ⟨.hbm, 129, rfl⟩
abbrev main_call0_v84 : Ref sig .tc := ⟨.hbm, 130, rfl⟩
abbrev main_call0_v85 : Ref sig .tc := ⟨.hbm, 131, rfl⟩
abbrev main_call0_v86 : Ref sig .tc := ⟨.hbm, 132, rfl⟩
abbrev main_call0_c_26 : Ref sig .tc := ⟨.hbm, 133, rfl⟩
abbrev main_call0_v87 : Ref sig .tc := ⟨.hbm, 134, rfl⟩
abbrev main_call0_v88 : Ref sig .tc := ⟨.hbm, 135, rfl⟩
abbrev main_call0_c_27 : Ref sig .tc := ⟨.hbm, 136, rfl⟩
abbrev main_call0_v89 : Ref sig .tc := ⟨.hbm, 137, rfl⟩
abbrev main_call0_v90 : Ref sig .tc := ⟨.hbm, 138, rfl⟩
abbrev main_call0_v91 : Ref sig .tc := ⟨.hbm, 139, rfl⟩
abbrev main_call0_v92 : Ref sig .tc := ⟨.hbm, 140, rfl⟩
abbrev main_call0_v93 : Ref sig .tc := ⟨.hbm, 141, rfl⟩
abbrev main_call0_v94 : Ref sig .tc := ⟨.hbm, 142, rfl⟩
abbrev main_call0_v95 : Ref sig .tc := ⟨.hbm, 143, rfl⟩
abbrev main_call0_v96 : Ref sig .tc := ⟨.hbm, 144, rfl⟩
abbrev main_call0_cst_28 : Ref sig .tc := ⟨.hbm, 145, rfl⟩
abbrev main_call0_v97 : Ref sig .tc := ⟨.hbm, 146, rfl⟩
abbrev main_call0_v98 : Ref sig .tc := ⟨.hbm, 147, rfl⟩
abbrev main_call0_v99 : Ref sig .tc := ⟨.hbm, 148, rfl⟩
abbrev main_call0_v100 : Ref sig .tc := ⟨.hbm, 149, rfl⟩
abbrev main_call0_v101 : Ref sig .tc := ⟨.hbm, 150, rfl⟩
abbrev main_call0_v102 : Ref sig .tc := ⟨.hbm, 151, rfl⟩
abbrev main_call0_v103 : Ref sig .tc := ⟨.hbm, 152, rfl⟩
abbrev main_call0_cst_29 : Ref sig .tc := ⟨.hbm, 153, rfl⟩
abbrev main_call0_v104 : Ref sig .tc := ⟨.hbm, 154, rfl⟩
abbrev main_call0_v105 : Ref sig .tc := ⟨.hbm, 155, rfl⟩
abbrev main_call0_v106 : Ref sig .tc := ⟨.hbm, 156, rfl⟩
abbrev main_call0_v107 : Ref sig .tc := ⟨.hbm, 157, rfl⟩
abbrev main_call0_v108 : Ref sig .tc := ⟨.hbm, 158, rfl⟩
abbrev main_call0_v109 : Ref sig .tc := ⟨.hbm, 159, rfl⟩
abbrev main_call0_v110 : Ref sig .tc := ⟨.hbm, 160, rfl⟩
abbrev main_call0_cst_30 : Ref sig .tc := ⟨.hbm, 161, rfl⟩
abbrev main_call0_v111 : Ref sig .tc := ⟨.hbm, 162, rfl⟩
abbrev main_call0_v112 : Ref sig .tc := ⟨.hbm, 163, rfl⟩
abbrev main_call0_v113 : Ref sig .tc := ⟨.hbm, 164, rfl⟩
abbrev main_call0_v114 : Ref sig .tc := ⟨.hbm, 165, rfl⟩
abbrev main_call0_v115 : Ref sig .tc := ⟨.hbm, 166, rfl⟩
abbrev main_call0_v116 : Ref sig .tc := ⟨.hbm, 167, rfl⟩
abbrev main_call0_v117 : Ref sig .tc := ⟨.hbm, 168, rfl⟩
abbrev main_call0_v118 : Ref sig .tc := ⟨.hbm, 169, rfl⟩
abbrev main_call0_v119 : Ref sig .tc := ⟨.hbm, 170, rfl⟩
abbrev main_call0_v120 : Ref sig .tc := ⟨.hbm, 171, rfl⟩
abbrev main_call0_v121 : Ref sig .tc := ⟨.hbm, 172, rfl⟩
abbrev main_call0_v122 : Ref sig .tc := ⟨.hbm, 173, rfl⟩
abbrev main_call0_v123 : Ref sig .tc := ⟨.hbm, 174, rfl⟩
abbrev main_call0_v124 : Ref sig .tc := ⟨.hbm, 175, rfl⟩
abbrev main_v0 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x3 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  slices_S1048576x2_S1048576x1_0_0 : S1048576x2.Slices ![0, 0] S1048576x1
  shapeCasts_S1048576x1_S1048576 : S1048576x1.ShapeCasts S1048576
  bcast_S_S1048576 : S_.BroadcastsInDim S1048576 (![] : Fin 0 → Fin S1048576.rank)
  slices_S1048576x2_S1048576x1_0_1 : S1048576x2.Slices ![0, 1] S1048576x1
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  bcast_S_S1048576x1 : S_.BroadcastsInDim S1048576x1 (![] : Fin 0 → Fin S1048576x1.rank)
  bcast_S1048576x1_S1048576x64_0_1 : S1048576x1.BroadcastsInDim S1048576x64 (![0, 1] : Fin 2 → Fin S1048576x64.rank)
  shapeCasts_S256_S1x256 : S256.ShapeCasts S1x256
  shapeCasts_S3_S1x3 : S3.ShapeCasts S1x3
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S8192x3 : S1x3.Broadcasts S8192x3
  inb_S8192x3_S8192x3_0_0 : ∀ a, (![0, 0] : Fin 2 → Nat) a + S8192x3.size a ≤ S8192x3.size a
  h_S8192x3 : 0 < S8192x3.numel
  gather_S512x512x64_S1048576x2_S1048576x64_1_01_n_n_01_1_1164_wf : GatherDims.WF S512x512x64 S1048576x2 S1048576x64 [1] [0, 1] [] [0, 1] [] 1 ![1, 1, 64]
  dot_S8192x64_S64x256_S8192x256_1_0_0_1_n_n_wf : DotDims.WF S8192x64 S64x256 S8192x256 [1] [0] [0] [1] [] []
  dot_S8192x256_S256x256_S8192x256_1_0_0_1_n_n_wf : DotDims.WF S8192x256 S256x256 S8192x256 [1] [0] [0] [1] [] []
  dot_S8192x256_S256x3_S8192x3_1_0_0_1_n_n_wf : DotDims.WF S8192x256 S256x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .bf16 = 32 ∨ (Rect.block (s := S1048576x64) S8192x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x3.size a ≤ S256x3.size a
  hwx0_5 : ∀ i : grid0.Coords, EltTy.bits .bf16 = 32 ∨ (Rect.block (s := S256x3) S256x3.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x3.size a ≤ S1048576x3.size a
  hwx0_7 : ∀ i : grid0.Coords, EltTy.bits .f32 = 32 ∨ (Rect.block (s := S1048576x3) S8192x3.size (cc0_transform_7 i) (hinb0_7 i)).WholeWords (EltTy.packing .f32)

variable [Facts₀]

def gather_S512x512x64_S1048576x2_S1048576x64_1_01_n_n_01_1_1164 : GatherDims S512x512x64 S1048576x2 S1048576x64 where
  offsetDims := [1]
  collapsedSliceDims := [0, 1]
  operandBatchingDims := []
  startIndicesBatchingDims := []
  startIndexMap := [0, 1]
  indexVectorDim := 1
  sliceSizes := ![1, 1, 64]
  wf := gather_S512x512x64_S1048576x2_S1048576x64_1_01_n_n_01_1_1164_wf
def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x3_S8192x3_1_0_0_1_n_n : DotDims S8192x256 S256x3 S8192x3 where
  lhsContracting := [1]
  rhsContracting := [0]
  lhsNonContracting := [0]
  rhsNonContracting := [1]
  lhsBatch := []
  rhsBatch := []
  wf := dot_S8192x256_S256x3_S8192x3_1_0_0_1_n_n_wf

abbrev win0_0 : Pipeline.Window sig grid0 :=
  Pipeline.Window.ofSpec (Memref.whole main_call0_v118) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v119) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v122) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v120) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v123) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v121) S256x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v124) S1x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S8192x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x2 : Shape := ⟨2, ![1048576, 2]⟩
abbrev S512x512x64 : Shape := ⟨3, ![512, 512, 64]⟩
abbrev S64x256 : Shape := ⟨2, ![64, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S1048576x1 : Shape := ⟨2, ![1048576, 1]⟩
abbrev S1048576 : Shape := ⟨1, ![1048576]⟩
abbrev S_ : Shape := ⟨0, ![]⟩
abbrev S1048576x64 : Shape := ⟨2, ![1048576, 64]⟩
abbrev S1048576x256 : Shape := ⟨2, ![1048576, 256]⟩
abbrev S1x256 : Shape := ⟨2, ![1, 256]⟩
abbrev S1048576x3 : Shape := ⟨2, ![1048576, 3]⟩
abbrev S1x3 : Shape := ⟨2, ![1, 3]⟩

abbrev nBuf : Space → Nat
  | .hbm => 182
  | .vmem => 0
  | .smem => 0
  | _ => 0

abbrev hbmTy0_0 (i : Nat) : BufTy := match i % 128 with
  | 0 => ⟨S1048576x2, .f32⟩
  | 1 => ⟨S512x512x64, .f32⟩
  | 2 => ⟨S64x256, .f32⟩
  | 3 => ⟨S256, .f32⟩
  | 4 => ⟨S256x256, .f32⟩
  | 5 => ⟨S256, .f32⟩
  | 6 => ⟨S256x3, .f32⟩
  | 7 => ⟨S3, .f32⟩
  | 8 => ⟨S1048576x1, .f32⟩
  | 9 => ⟨S1048576, .f32⟩
  | 10 => ⟨S_, .f32⟩
  | 11 => ⟨S1048576, .f32⟩
  | 12 => ⟨S1048576, .f32⟩
  | 13 => ⟨S_, .f32⟩
  | 14 => ⟨S1048576, .f32⟩
  | 15 => ⟨S1048576, .f32⟩
  | 16 => ⟨S_, .f32⟩
  | 17 => ⟨S1048576, .f32⟩
  | 18 => ⟨S1048576, .f32⟩
  | 19 => ⟨S1048576x1, .f32⟩
  | 20 => ⟨S1048576, .f32⟩
  | 21 => ⟨S_, .f32⟩
  | 22 => ⟨S1048576, .f32⟩
  | 23 => ⟨S1048576, .f32⟩
  | 24 => ⟨S_, .f32⟩
  | 25 => ⟨S1048576, .f32⟩
  | 26 => ⟨S1048576, .f32⟩
  | 27 => ⟨S_, .f32⟩
  | 28 => ⟨S1048576, .f32⟩
  | 29 => ⟨S1048576, .f32⟩
  | 30 => ⟨S1048576, .f32⟩
  | 31 => ⟨S_, .i32⟩
  | 32 => ⟨S_, .i32⟩
  | 33 => ⟨S_, .f32⟩
  | 34 => ⟨S1048576, .f32⟩
  | 35 => ⟨S1048576, .f32⟩
  | 36 => ⟨S_, .f32⟩
  | 37 => ⟨S1048576, .f32⟩
  | 38 => ⟨S1048576, .f32⟩
  | 39 => ⟨S1048576, .i32⟩
  | 40 => ⟨S1048576, .f32⟩
  | 41 => ⟨S_, .i32⟩
  | 42 => ⟨S_, .i32⟩
  | 43 => ⟨S_, .f32⟩
  | 44 => ⟨S1048576, .f32⟩
  | 45 => ⟨S1048576, .f32⟩
  | 46 => ⟨S_, .f32⟩
  | 47 => ⟨S1048576, .f32⟩
  | 48 => ⟨S1048576, .f32⟩
  | 49 => ⟨S1048576, .i32⟩
  | 50 => ⟨S1048576, .f32⟩
  | 51 => ⟨S1048576, .f32⟩
  | 52 => ⟨S1048576x1, .f32⟩
  | 53 => ⟨S1048576, .f32⟩
  | 54 => ⟨S1048576, .f32⟩
  | 55 => ⟨S1048576x1, .f32⟩
  | 56 => ⟨S_, .i32⟩
  | 57 => ⟨S1048576, .i32⟩
  | 58 => ⟨S1048576, .i1⟩
  | 59 => ⟨S_, .i32⟩
  | 60 => ⟨S1048576, .i32⟩
  | 61 => ⟨S1048576, .i32⟩
  | 62 => ⟨S1048576, .i32⟩
  | 63 => ⟨S_, .i32⟩
  | 64 => ⟨S1048576, .i32⟩
  | 65 => ⟨S1048576, .i1⟩
  | 66 => ⟨S_, .i32⟩
  | 67 => ⟨S1048576, .i32⟩
  | 68 => ⟨S1048576, .i32⟩
  | 69 => ⟨S1048576, .i32⟩
  | 70 => ⟨S1048576x1, .i32⟩
  | 71 => ⟨S1048576x1, .i32⟩
  | 72 => ⟨S1048576x2, .i32⟩
  | 73 => ⟨S1048576x64, .f32⟩
  | 74 => ⟨S_, .i32⟩
  | 75 => ⟨S1048576, .i32⟩
  | 76 => ⟨S1048576, .i32⟩
  | 77 => ⟨S_, .i32⟩
  | 78 => ⟨S1048576, .i32⟩
  | 79 => ⟨S1048576, .i1⟩
  | 80 => ⟨S_, .i32⟩
  | 81 => ⟨S1048576, .i32⟩
  | 82 => ⟨S1048576, .i32⟩
  | 83 => ⟨S1048576, .i32⟩
  | 84 => ⟨S_, .i32⟩
  | 85 => ⟨S1048576, .i32⟩
  | 86 => ⟨S1048576, .i1⟩
  | 87 => ⟨S_, .i32⟩
  | 88 => ⟨S1048576, .i32⟩
  | 89 => ⟨S1048576, .i32⟩
  | 90 => ⟨S1048576, .i32⟩
  | 91 => ⟨S1048576x1, .i32⟩
  | 92 => ⟨S1048576x1, .i32⟩
  | 93 => ⟨S1048576x2, .i32⟩
  | 94 => ⟨S1048576x64, .f32⟩
  | 95 => ⟨S_, .i32⟩
  | 96 => ⟨S1048576, .i32⟩
  | 97 => ⟨S1048576, .i32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i32⟩
  | 104 => ⟨S1048576, .i32⟩
  | 105 => ⟨S_, .i32⟩
  | 106 => ⟨S1048576, .i32⟩
  | 107 => ⟨S1048576, .i1⟩
  | 108 => ⟨S_, .i32⟩
  | 109 => ⟨S1048576, .i32⟩
  | 110 => ⟨S1048576, .i32⟩
  | 111 => ⟨S1048576, .i32⟩
  | 112 => ⟨S1048576x1, .i32⟩
  | 113 => ⟨S1048576x1, .i32⟩
  | 114 => ⟨S1048576x2, .i32⟩
  | 115 => ⟨S1048576x64, .f32⟩
  | 116 => ⟨S_, .i32⟩
  | 117 => ⟨S1048576, .i32⟩
  | 118 => ⟨S1048576, .i32⟩
  | 119 => ⟨S_, .i32⟩
  | 120 => ⟨S1048576, .i32⟩
  | 121 => ⟨S1048576, .i32⟩
  | 122 => ⟨S_, .i32⟩
  | 123 => ⟨S1048576, .i32⟩
  | 124 => ⟨S1048576, .i1⟩
  | 125 => ⟨S_, .i32⟩
  | 126 => ⟨S1048576, .i32⟩
  | 127 => ⟨S1048576, .i32⟩
  | _ => ⟨S1048576x2, .f32⟩

abbrev hbmTy0_1 (i : Nat) : BufTy := match i % 128 with
  | 0 => ⟨S1048576, .i32⟩
  | 1 => ⟨S_, .i32⟩
  | 2 => ⟨S1048576, .i32⟩
  | 3 => ⟨S1048576, .i1⟩
  | 4 => ⟨S_, .i32⟩
  | 5 => ⟨S1048576, .i32⟩
  | 6 => ⟨S1048576, .i32⟩
  | 7 => ⟨S1048576, .i32⟩
  | 8 => ⟨S1048576x1, .i32⟩
  | 9 => ⟨S1048576x1, .i32⟩
  | 10 => ⟨S1048576x2, .i32⟩
  | 11 => ⟨S1048576x64, .f32⟩
  | 12 => ⟨S_, .f32⟩
  | 13 => ⟨S1048576x1, .f32⟩
  | 14 => ⟨S1048576x1, .f32⟩
  | 15 => ⟨S1048576x64, .f32⟩
  | 16 => ⟨S1048576x64, .f32⟩
  | 17 => ⟨S1048576x64, .f32⟩
  | 18 => ⟨S1048576x64, .f32⟩
  | 19 => ⟨S1048576x64, .f32⟩
  | 20 => ⟨S_, .f32⟩
  | 21 => ⟨S1048576x1, .f32⟩
  | 22 => ⟨S1048576x1, .f32⟩
  | 23 => ⟨S1048576x64, .f32⟩
  | 24 => ⟨S1048576x64, .f32⟩
  | 25 => ⟨S1048576x64, .f32⟩
  | 26 => ⟨S1048576x64, .f32⟩
  | 27 => ⟨S1048576x64, .f32⟩
  | 28 => ⟨S_, .f32⟩
  | 29 => ⟨S1048576x1, .f32⟩
  | 30 => ⟨S1048576x1, .f32⟩
  | 31 => ⟨S1048576x64, .f32⟩
  | 32 => ⟨S1048576x64, .f32⟩
  | 33 => ⟨S1048576x64, .f32⟩
  | 34 => ⟨S1048576x64, .f32⟩
  | 35 => ⟨S1048576x64, .f32⟩
  | 36 => ⟨S1048576x256, .f32⟩
  | 37 => ⟨S1x256, .f32⟩
  | 38 => ⟨S1048576x256, .f32⟩
  | 39 => ⟨S1048576x256, .f32⟩
  | 40 => ⟨S_, .f32⟩
  | 41 => ⟨S1048576x256, .f32⟩
  | 42 => ⟨S1048576x256, .f32⟩
  | 43 => ⟨S1048576x256, .f32⟩
  | 44 => ⟨S1x256, .f32⟩
  | 45 => ⟨S1048576x256, .f32⟩
  | 46 => ⟨S1048576x256, .f32⟩
  | 47 => ⟨S_, .f32⟩
  | 48 => ⟨S1048576x256, .f32⟩
  | 49 => ⟨S1048576x256, .f32⟩
  | 50 => ⟨S1048576x3, .f32⟩
  | 51 => ⟨S1x3, .f32⟩
  | 52 => ⟨S1048576x3, .f32⟩
  | 53 => ⟨S1048576x3, .f32⟩
  | _ => ⟨S1048576x2, .f32⟩

abbrev hbmTy (i : Nat) : BufTy := match i / 128 with
  | 0 => hbmTy0_0 i
  | 1 => hbmTy0_1 i
  | _ => ⟨S1048576x2, .f32⟩

abbrev bufTy : (tb : Table) → Fin (tcTables nBuf tb) → BufTy
  | .hbm, ⟨i, _⟩ => hbmTy i
  | _, _ => ⟨S1048576x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_c_5 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_6 : Ref sig .tc := ⟨.hbm, 41, rfl⟩
abbrev main_c_7 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_8 : Ref sig .tc := ⟨.hbm, 56, rfl⟩
abbrev main_v28 : Ref sig .tc := ⟨.hbm, 57, rfl⟩
abbrev main_v29 : Ref sig .tc := ⟨.hbm, 58, rfl⟩
abbrev main_c_9 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_10 : Ref sig .tc := ⟨.hbm, 63, rfl⟩
abbrev main_v33 : Ref sig .tc := ⟨.hbm, 64, rfl⟩
abbrev main_v34 : Ref sig .tc := ⟨.hbm, 65, rfl⟩
abbrev main_c_11 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_12 : Ref sig .tc := ⟨.hbm, 74, rfl⟩
abbrev main_v42 : Ref sig .tc := ⟨.hbm, 75, rfl⟩
abbrev main_v43 : Ref sig .tc := ⟨.hbm, 76, rfl⟩
abbrev main_c_13 : Ref sig .tc := ⟨.hbm, 77, rfl⟩
abbrev main_v44 : Ref sig .tc := ⟨.hbm, 78, rfl⟩
abbrev main_v45 : Ref sig .tc := ⟨.hbm, 79, rfl⟩
abbrev main_c_14 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_15 : Ref sig .tc := ⟨.hbm, 84, rfl⟩
abbrev main_v49 : Ref sig .tc := ⟨.hbm, 85, rfl⟩
abbrev main_v50 : Ref sig .tc := ⟨.hbm, 86, rfl⟩
abbrev main_c_16 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_c_17 : Ref sig .tc := ⟨.hbm, 95, rfl⟩
abbrev main_v58 : Ref sig .tc := ⟨.hbm, 96, rfl⟩
abbrev main_v59 : Ref sig .tc := ⟨.hbm, 97, rfl⟩
abbrev main_c_18 : Ref sig .tc := ⟨.hbm, 98, rfl⟩
abbrev main_v60 : Ref sig .tc := ⟨.hbm, 99, rfl⟩
abbrev main_v61 : Ref sig .tc := ⟨.hbm, 100, rfl⟩
abbrev main_c_19 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_c_20 : Ref sig .tc := ⟨.hbm, 105, rfl⟩
abbrev main_v65 : Ref sig .tc := ⟨.hbm, 106, rfl⟩
abbrev main_v66 : Ref sig .tc := ⟨.hbm, 107, rfl⟩
abbrev main_c_21 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_22 : Ref sig .tc := ⟨.hbm, 116, rfl⟩
abbrev main_v74 : Ref sig .tc := ⟨.hbm, 117, rfl⟩
abbrev main_v75 : Ref sig .tc := ⟨.hbm, 118, rfl⟩
abbrev main_c_23 : Ref sig .tc := ⟨.hbm, 119, rfl⟩
abbrev main_v76 : Ref sig .tc := ⟨.hbm, 120, rfl⟩
abbrev main_v77 : Ref sig .tc := ⟨.hbm, 121, rfl⟩
abbrev main_c_24 : Ref sig .tc := ⟨.hbm, 122, rfl⟩
abbrev main_v78 : Ref sig .tc := ⟨.hbm, 123, rfl⟩
abbrev main_v79 : Ref sig .tc := ⟨.hbm, 124, rfl⟩
abbrev main_c_25 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_c_26 : Ref sig .tc := ⟨.hbm, 129, rfl⟩
abbrev main_v83 : Ref sig .tc := ⟨.hbm, 130, rfl⟩
abbrev main_v84 : Ref sig .tc := ⟨.hbm, 131, rfl⟩
abbrev main_c_27 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_28 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_29 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_30 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_call2_cst : Ref sig .tc := ⟨.hbm, 168, rfl⟩
abbrev main_call2_v0 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_call3_cst : Ref sig .tc := ⟨.hbm, 175, rfl⟩
abbrev main_call3_v0 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩

abbrev nD : Nat := 1
abbrev τ : Topo := Topo.v7x

variable {F : FTy → Type} [FloatOps F]

class Facts₀ : Prop where
  slices_S1048576x2_S1048576x1_0_0 : S1048576x2.Slices ![0, 0] S1048576x1
  shapeCasts_S1048576x1_S1048576 : S1048576x1.ShapeCasts S1048576
  bcast_S_S1048576 : S_.BroadcastsInDim S1048576 (![] : Fin 0 → Fin S1048576.rank)
  slices_S1048576x2_S1048576x1_0_1 : S1048576x2.Slices ![0, 1] S1048576x1
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  bcast_S_S1048576x1 : S_.BroadcastsInDim S1048576x1 (![] : Fin 0 → Fin S1048576x1.rank)
  bcast_S1048576x1_S1048576x64_0_1 : S1048576x1.BroadcastsInDim S1048576x64 (![0, 1] : Fin 2 → Fin S1048576x64.rank)
  bcast_S256_S1x256_1 : S256.BroadcastsInDim S1x256 (![1] : Fin 1 → Fin S1x256.rank)
  bcast_S1x256_S1048576x256_0_1 : S1x256.BroadcastsInDim S1048576x256 (![0, 1] : Fin 2 → Fin S1048576x256.rank)
  bcast_S_S1048576x256 : S_.BroadcastsInDim S1048576x256 (![] : Fin 0 → Fin S1048576x256.rank)
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  gather_S512x512x64_S1048576x2_S1048576x64_1_01_n_n_01_1_1164_wf : GatherDims.WF S512x512x64 S1048576x2 S1048576x64 [1] [0, 1] [] [0, 1] [] 1 ![1, 1, 64]
  dot_S1048576x64_S64x256_S1048576x256_1_0_0_1_n_n_wf : DotDims.WF S1048576x64 S64x256 S1048576x256 [1] [0] [0] [1] [] []
  dot_S1048576x256_S256x256_S1048576x256_1_0_0_1_n_n_wf : DotDims.WF S1048576x256 S256x256 S1048576x256 [1] [0] [0] [1] [] []
  dot_S1048576x256_S256x3_S1048576x3_1_0_0_1_n_n_wf : DotDims.WF S1048576x256 S256x3 S1048576x3 [1] [0] [0] [1] [] []

variable [Facts₀]

def gather_S512x512x64_S1048576x2_S1048576x64_1_01_n_n_01_1_1164 : GatherDims S512x512x64 S1048576x2 S1048576x64 where
  offsetDims := [1]
  collapsedSliceDims := [0, 1]
  operandBatchingDims := []
  startIndicesBatchingDims := []
  startIndexMap := [0, 1]
  indexVectorDim := 1
  sliceSizes := ![1, 1, 64]
  wf := gather_S512x512x64_S1048576x2_S1048576x64_1_01_n_n_01_1_1164_wf
def dot_S1048576x64_S64x256_S1048576x256_1_0_0_1_n_n : DotDims S1048576x64 S64x256 S1048576x256 where
  lhsContracting := [1]
  rhsContracting := [0]
  lhsNonContracting := [0]
  rhsNonContracting := [1]
  lhsBatch := []
  rhsBatch := []
  wf := dot_S1048576x64_S64x256_S1048576x256_1_0_0_1_n_n_wf
def dot_S1048576x256_S256x256_S1048576x256_1_0_0_1_n_n : DotDims S1048576x256 S256x256 S1048576x256 where
  lhsContracting := [1]
  rhsContracting := [0]
  lhsNonContracting := [0]
  rhsNonContracting := [1]
  lhsBatch := []
  rhsBatch := []
  wf := dot_S1048576x256_S256x256_S1048576x256_1_0_0_1_n_n_wf
def dot_S1048576x256_S256x3_S1048576x3_1_0_0_1_n_n : DotDims S1048576x256 S256x3 S1048576x3 where
  lhsContracting := [1]
  rhsContracting := [0]
  lhsNonContracting := [0]
  rhsNonContracting := [1]
  lhsBatch := []
  rhsBatch := []
  wf := dot_S1048576x256_S256x3_S1048576x3_1_0_0_1_n_n_wf

class Facts : Prop extends Facts₀ where

variable [Facts]
-- ==== Proof.LibExactFormat.lean ====
/-
  Changes of float format over the extended reals.

  At the exact values every float of every format is an extended real, and narrowing or widening the format of a
  whole array leaves every entry as it is: both operations are the identity.
-/
import Idealize.ShloMosaic.PureOps.Ideal

noncomputable section

namespace Cert.Lib.ExactFormat

open Idealize.ShloMosaic

/-- Narrowing the float format changes nothing at the exact values. -/
theorem narrow_id {s : Shape} {φ ψ : FTy} (v : FVec Ideal s φ) (h : ψ.bits < φ.bits) :
    (truncf ψ v h : FVec Ideal s ψ) = v := rfl

/-- Widening the float format changes nothing at the exact values. -/
theorem widen_id {s : Shape} {φ ψ : FTy} (v : FVec Ideal s φ) (h : φ.bits < ψ.bits) :
    (extf ψ v h : FVec Ideal s ψ) = v := rfl

end Cert.Lib.ExactFormat

end
-- ==== Proof.KernelArrays.lean ====
/-
  What the kernel's region finds in the seven arrays it stages.

  Before the region the host part of the kernel program samples the feature grid bilinearly at the query
  coordinates, narrows the features and the three weight matrices to a shorter float format, and reshapes each bias
  vector to a one-row matrix.  At the exact values a change of float format is the identity, so:
    * the staged feature array is the same function of the coordinates and the grid as the reference's sampled
      features — both programs spell the sampling with the same operations in the same order (the kernel narrows the
      grid first and widens each gathered row back, which changes nothing);
    * each staged weight matrix is the argument matrix;
    * each staged one-row bias is the reshaped argument vector.
-/
import proofs.«103764_j17154099380948_2_alg».proof.Proof.Gen.KernelIdeal.Frame
import proofs.«103764_j17154099380948_2_alg».proof.Proof.Gen.ReferenceIdeal.Read
import Idealize.ShloMosaic.Lib.StableHlo.Run
import proofs.«103764_j17154099380948_2_alg».proof.Proof.LibExactFormat

noncomputable section

namespace Cert.KernelIdeal.Arrays

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The reference's sampled features, as a function of the kernel program's first two arguments. -/
abbrev feats (c : Dev nD) : S1048576x64.Idx → EReal :=
  Cert.ReferenceIdeal.Read.val_main_v112 (F := Ideal) (m ((c : Thread nD τ).loc main_arg0)) (m ((c : Thread nD τ).loc main_arg1))

set_option maxRecDepth 16384 in
set_option maxHeartbeats 4000000 in
/-- The staged feature array is the reference's sampled features of the same coordinates and grid. -/
theorem V_feats (c : Dev nD) : (V m c main_call0_v118 : S1048576x64.Idx → EReal) = feats m c := by
  dsimp only [Gen.V, Gen.hostOps0]
  after_results_simp
  simp only [Cert.Lib.ExactFormat.narrow_id, Cert.Lib.ExactFormat.widen_id]
  rfl

/-- The staged first weight matrix is the argument. -/
theorem V_w1 (c : Dev nD) : (V m c main_call0_v119 : S64x256.Idx → EReal) = m ((c : Thread nD τ).loc main_arg2) := by
  dsimp only [Gen.V, Gen.hostOps0]
  after_results_simp
  rfl

/-- The staged second weight matrix is the argument. -/
theorem V_w2 (c : Dev nD) : (V m c main_call0_v120 : S256x256.Idx → EReal) = m ((c : Thread nD τ).loc main_arg4) := by
  dsimp only [Gen.V, Gen.hostOps0]
  after_results_simp
  rfl

/-- The staged third weight matrix is the argument. -/
theorem V_w3 (c : Dev nD) : (V m c main_call0_v121 : S256x3.Idx → EReal) = m ((c : Thread nD τ).loc main_arg6) := by
  dsimp only [Gen.V, Gen.hostOps0]
  after_results_simp
  rfl

/-- The staged first bias is the argument vector reshaped to one row. -/
theorem V_b1 (c : Dev nD) : (V m c main_call0_v122 : S1x256.Idx → EReal)
    = shapeCast S1x256 (m ((c : Thread nD τ).loc main_arg3)) shapeCasts_S256_S1x256 := by
  dsimp only [Gen.V, Gen.hostOps0]
  after_results_simp
  rfl

/-- The staged second bias is the argument vector reshaped to one row. -/
theorem V_b2 (c : Dev nD) : (V m c main_call0_v123 : S1x256.Idx → EReal)
    = shapeCast S1x256 (m ((c : Thread nD τ).loc main_arg5)) shapeCasts_S256_S1x256 := by
  dsimp only [Gen.V, Gen.hostOps0]
  after_results_simp
  rfl

/-- The staged third bias is the argument vector reshaped to one row. -/
theorem V_b3 (c : Dev nD) : (V m c main_call0_v124 : S1x3.Idx → EReal)
    = shapeCast S1x3 (m ((c : Thread nD τ).loc main_arg7)) shapeCasts_S3_S1x3 := by
  dsimp only [Gen.V, Gen.hostOps0]
  after_results_simp
  rfl

end Cert.KernelIdeal.Arrays

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.LibHostRead.lean ====
/-
  Small layout operations read at an index: a scalar broadcast everywhere; a vector made a column, a column spread
  over the columns of a matrix, a vector made a row, a row spread over the rows of a matrix; a one-column matrix
  flattened; a column spread over a matrix by the accelerator's broadcast; and a matrix assembled from three blocks
  of columns.  Each reads the operand at the evident index.
-/
import Idealize.ShloMosaic.PureOps.Ideal
import Idealize.ShloMosaic.Lib.ValueIdx
import Idealize.ShloMosaic.Lib.ValueLayout
import Idealize.ShloMosaic.Lib.Pipeline.Value

noncomputable section

namespace Cert.LibHostRead

open Idealize.ShloMosaic Idealize.ShloMosaic.ValueIdx

variable {α : Type}

/-- A scalar broadcast to any shape reads the scalar everywhere. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector `[a]` made a column `[a, 1]` reads, at `(i, u)`, the vector at `i`. -/
theorem bcast_col_apply {a : Nat} (dims : Fin 1 → Fin 2) (hd : dims 0 = 0)
    (h : (⟨1, ![a]⟩ : Shape).BroadcastsInDim ⟨2, ![a, 1]⟩ dims)
    (x : (⟨1, ![a]⟩ : Shape).Idx → α) (i : Fin a) (u : Fin 1) :
    broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` spread over `[a, b]` reads, at `(i, c)`, the column at `i`. -/
theorem bcast_col_wide_apply {a b : Nat} (dims : Fin 2 → Fin 2) (hd0 : dims 0 = 0) (hd1 : dims 1 = 1)
    (h : (⟨2, ![a, 1]⟩ : Shape).BroadcastsInDim ⟨2, ![a, b]⟩ dims)
    (x : (⟨2, ![a, 1]⟩ : Shape).Idx → α) (i : Fin a) (c : Fin b) :
    broadcastInDim ⟨2, ![a, b]⟩ dims h x (ix2 i c) = x (ix2 i (0 : Fin 1)) := by
  refine broadcastInDim_apply dims h x (ix2 i c) (ix2 i (0 : Fin 1)) fun ax => ?_
  match ax with
  | ⟨0, _⟩ =>
    show i.val = if a = 1 then 0 else ((ix2 i c : (⟨2, ![a, b]⟩ : Shape).Idx) (dims 0)).val
    rw [hd0]
    split
    · have := i.isLt; omega
    · rfl
  | ⟨1, _⟩ =>
    show (0 : ℕ) = if (1 : ℕ) = 1 then 0 else _
    rw [if_pos rfl]

/-- A vector `[b]` made a row `[1, b]` reads, at `(u, c)`, the vector at `c`. -/
theorem bcast_row_apply {b : Nat} (dims : Fin 1 → Fin 2) (hd : dims 0 = 1)
    (h : (⟨1, ![b]⟩ : Shape).BroadcastsInDim ⟨2, ![1, b]⟩ dims)
    (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c : (⟨2, ![1, b]⟩ : Shape).Idx) (dims 0)).val
    rw [hd]
    split
    · have := c.isLt; omega
    · rfl

/-- A row `[1, b]` spread over `[a, b]` reads, at `(i, c)`, the row at `c`. -/
theorem bcast_row_wide_apply {a b : Nat} (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (i : Fin a) (c : Fin b) :
    broadcastInDim ⟨2, ![a, b]⟩ dims h x (ix2 i c) = x (ix2 (0 : Fin 1) c) := by
  refine broadcastInDim_apply dims h x (ix2 i c) (ix2 (0 : Fin 1) c) fun ax => ?_
  match ax with
  | ⟨0, _⟩ =>
    show (0 : ℕ) = if (1 : ℕ) = 1 then 0 else _
    rw [if_pos rfl]
  | ⟨1, _⟩ =>
    show c.val = if b = 1 then 0 else ((ix2 i c : (⟨2, ![a, b]⟩ : Shape).Idx) (dims 1)).val
    rw [hd1]
    split
    · have := c.isLt; omega
    · rfl

/-- A one-column matrix `[a, 1]` flattened to `[a]` reads, at `i`, the matrix at `(i, 0)`. -/
theorem shapeCast_a1_a_apply {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The accelerator's broadcast of a column `[a, 1]` to `[a, b]` reads, at `(i, c)`, the column at `i`. -/
theorem broadcastTo_a1_ab_apply {a b : Nat} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

end Cert.LibHostRead

end
-- ==== Proof.LibBiasRelu.lean ====
/-
  Bias and rectifier, read index by index over the extended reals.

  For an `M×N` array `a` and a vector `b` of length `N` the function
      (i, j) ↦ max (a (i, j) + b j, 0)
  is what a graph-convolution layer applies after aggregation.  The host spells it with the bias made a row
  `[1, N]`, the row spread over `[M, N]`, an elementwise sum and an elementwise maximum with a broadcast zero; this
  file shows that spelling is the function above.  The function is local in the row: its value at `(i, j)` reads
  `a` at `(i, j)` only, so a block of rows of the result is the function of the same block of rows of `a`.
-/
import Idealize.ShloMosaic.PureOps.Ideal
import Idealize.ShloMosaic.Lib.ValueIdx
import proofs.«103764_j17154099380948_2_alg».proof.Proof.LibHostRead

noncomputable section

namespace Cert.Lib.BiasRelu

open Idealize.ShloMosaic Idealize.ShloMosaic.ValueIdx

/-- `max (a (i, j) + b j, 0)`, the zero being the extended real the all-zero word encodes. -/
def br {M N : Nat} (a : (⟨2, ![M, N]⟩ : Shape).Idx → EReal) (b : (⟨1, ![N]⟩ : Shape).Idx → EReal) :
    (⟨2, ![M, N]⟩ : Shape).Idx → EReal :=
  fun i => max (a i + b (ix1 (i 1))) (Ideal.ofBits .f32 0x00000000#32)

theorem br_apply {M N : Nat} (a : (⟨2, ![M, N]⟩ : Shape).Idx → EReal) (b : (⟨1, ![N]⟩ : Shape).Idx → EReal)
    (i : Fin M) (j : Fin N) : br a b (ix2 i j) = max (a (ix2 i j) + b (ix1 j)) (Ideal.ofBits .f32 0x00000000#32) := rfl

/-- The host's spelling: the bias made a row, the row spread over the rows, added, and the maximum taken with a
    broadcast zero. -/
theorem host_spelling {M N : Nat} (d2 : Fin 2 → Fin 2) (hd0 : d2 0 = 0) (hd1 : d2 1 = 1)
    (h2 : (⟨2, ![1, N]⟩ : Shape).BroadcastsInDim ⟨2, ![M, N]⟩ d2)
    (d1 : Fin 1 → Fin 2) (hd : d1 0 = 1) (h1 : (⟨1, ![N]⟩ : Shape).BroadcastsInDim ⟨2, ![1, N]⟩ d1)
    (d0 : Fin 0 → Fin 2) (h0 : (⟨0, ![]⟩ : Shape).BroadcastsInDim ⟨2, ![M, N]⟩ d0)
    (a : FVec Ideal ⟨2, ![M, N]⟩ .f32) (b : FVec Ideal ⟨1, ![N]⟩ .f32) :
    maximumf (addf a (broadcastInDim ⟨2, ![M, N]⟩ d2 h2 (broadcastInDim ⟨2, ![1, N]⟩ d1 h1 b)))
        (broadcastInDim ⟨2, ![M, N]⟩ d0 h0 (constant (F := Ideal) ⟨0, ![]⟩ .f32 0x00000000#32))
      = br a b := by
  funext i
  obtain ⟨p, q, rfl⟩ : ∃ (p : Fin M) (q : Fin N), i = ix2 p q := ⟨i 0, i 1, eq_ix2 i⟩
  rw [maximumf_apply, addf_apply, Cert.LibHostRead.bcast_row_wide_apply d2 hd0 hd1 h2,
    Cert.LibHostRead.bcast_row_apply d1 hd h1, Cert.LibHostRead.bcast_scalar_apply (t := ⟨2, ![M, N]⟩) d0 h0, constant_apply]
  rfl

/-- Row locality: if row `y 0` of `a'` is row `z 0` of `a` and the two indices name the same column, the values at
    `y` and at `z` agree. -/
theorem br_block {M M' N : Nat} (a : (⟨2, ![M, N]⟩ : Shape).Idx → EReal) (a' : (⟨2, ![M', N]⟩ : Shape).Idx → EReal)
    (b : (⟨1, ![N]⟩ : Shape).Idx → EReal) (y : (⟨2, ![M', N]⟩ : Shape).Idx) (z : (⟨2, ![M, N]⟩ : Shape).Idx)
    (h1 : (z 1).val = (y 1).val) (ha : a' y = a z) : br a' b y = br a b z := by
  have e : (z 1 : Fin N) = (y 1 : Fin N) := Fin.ext h1
  unfold br
  rw [ha, e]

end Cert.Lib.BiasRelu

end
-- ==== Proof.LibMlp.lean ====
/-
  A three-layer perceptron read index by index over the extended reals.

  For a matrix `x` of `M` rows the function
      x ↦ (max (max (x·W₁ + b₁, 0)·W₂ + b₂, 0))·W₃ + b₃
  is built from the plain matrix product, the bias-and-rectifier layer and a last bias.  Every entry of row `i` of
  the result reads row `i` of `x` only, so the function applied to a block of rows of `x` gives the same block of
  rows of the result: a network evaluated tile by tile over the rows is the network evaluated on the whole array.
  The host spells the last bias with the vector made a row and the row spread over the rows; the accelerator keeps
  every bias as a one-row matrix and broadcasts that row; both spellings are shown to be the functions here.
-/
import Idealize.ShloMosaic.PureOps.Ideal.Laws
import Idealize.ShloMosaic.Lib.ValueIdx
import Idealize.ShloMosaic.Lib.Pipeline.Value
import proofs.«103764_j17154099380948_2_alg».proof.Proof.LibPlainDot
import proofs.«103764_j17154099380948_2_alg».proof.Proof.LibBiasRelu
import proofs.«103764_j17154099380948_2_alg».proof.Proof.LibHostRead

noncomputable section

namespace Cert.Lib.Mlp

open Idealize.ShloMosaic Idealize.ShloMosaic.ValueIdx Cert.Lib.PlainDot Cert.Lib.BiasRelu

/-- A bias added to every row: `(i, j) ↦ a (i, j) + b j`. -/
def ab {M N : Nat} (a : (⟨2, ![M, N]⟩ : Shape).Idx → EReal) (b : (⟨1, ![N]⟩ : Shape).Idx → EReal) :
    (⟨2, ![M, N]⟩ : Shape).Idx → EReal :=
  fun i => a i + b (ix1 (i 1))

/-- The three-layer network: two rectified layers and a last affine one. -/
def mlp3 {M K H J O : Nat} (x : (⟨2, ![M, K]⟩ : Shape).Idx → EReal)
    (w1 : (⟨2, ![K, H]⟩ : Shape).Idx → EReal) (b1 : (⟨1, ![H]⟩ : Shape).Idx → EReal)
    (w2 : (⟨2, ![H, J]⟩ : Shape).Idx → EReal) (b2 : (⟨1, ![J]⟩ : Shape).Idx → EReal)
    (w3 : (⟨2, ![J, O]⟩ : Shape).Idx → EReal) (b3 : (⟨1, ![O]⟩ : Shape).Idx → EReal) :
    (⟨2, ![M, O]⟩ : Shape).Idx → EReal :=
  ab (mm (br (mm (br (mm x w1) b1) w2) b2) w3) b3

/-- Row locality of the network: if row `p` of `x'` is row `i` of `x`, row `p` of the network of `x'` is row `i`
    of the network of `x`. -/
theorem mlp3_row {M M' K H J O : Nat} (x : (⟨2, ![M, K]⟩ : Shape).Idx → EReal) (x' : (⟨2, ![M', K]⟩ : Shape).Idx → EReal)
    (w1 : (⟨2, ![K, H]⟩ : Shape).Idx → EReal) (b1 : (⟨1, ![H]⟩ : Shape).Idx → EReal)
    (w2 : (⟨2, ![H, J]⟩ : Shape).Idx → EReal) (b2 : (⟨1, ![J]⟩ : Shape).Idx → EReal)
    (w3 : (⟨2, ![J, O]⟩ : Shape).Idx → EReal) (b3 : (⟨1, ![O]⟩ : Shape).Idx → EReal)
    (i : Fin M) (p : Fin M') (j : Fin O) (h : ∀ k : Fin K, x' (ix2 p k) = x (ix2 i k)) :
    mlp3 x' w1 b1 w2 b2 w3 b3 (ix2 p j) = mlp3 x w1 b1 w2 b2 w3 b3 (ix2 i j) := by
  have h1 : ∀ k : Fin H, br (mm x' w1) b1 (ix2 p k) = br (mm x w1) b1 (ix2 i k) := fun k =>
    br_block (mm x w1) (mm x' w1) b1 (ix2 p k) (ix2 i k) rfl (mm_row x x' w1 i p k h)
  have h2 : ∀ k : Fin J, br (mm (br (mm x' w1) b1) w2) b2 (ix2 p k) = br (mm (br (mm x w1) b1) w2) b2 (ix2 i k) := fun k =>
    br_block (mm (br (mm x w1) b1) w2) (mm (br (mm x' w1) b1) w2) b2 (ix2 p k) (ix2 i k) rfl
      (mm_row (br (mm x w1) b1) (br (mm x' w1) b1) w2 i p k h1)
  show mm (br (mm (br (mm x' w1) b1) w2) b2) w3 (ix2 p j) + b3 (ix1 j)
     = mm (br (mm (br (mm x w1) b1) w2) b2) w3 (ix2 i j) + b3 (ix1 j)
  rw [mm_row (br (mm (br (mm x w1) b1) w2) b2) (br (mm (br (mm x' w1) b1) w2) b2) w3 i p j h2]

/-! ## The host's spelling of the last bias -/

/-- The bias made a row, the row spread over the rows, added: `ab`. -/
theorem host_ab {M N : Nat} (d2 : Fin 2 → Fin 2) (hd0 : d2 0 = 0) (hd1 : d2 1 = 1)
    (h2 : (⟨2, ![1, N]⟩ : Shape).BroadcastsInDim ⟨2, ![M, N]⟩ d2)
    (d1 : Fin 1 → Fin 2) (hd : d1 0 = 1) (h1 : (⟨1, ![N]⟩ : Shape).BroadcastsInDim ⟨2, ![1, N]⟩ d1)
    (a : FVec Ideal ⟨2, ![M, N]⟩ .f32) (b : FVec Ideal ⟨1, ![N]⟩ .f32) :
    addf a (broadcastInDim ⟨2, ![M, N]⟩ d2 h2 (broadcastInDim ⟨2, ![1, N]⟩ d1 h1 b)) = ab a b := by
  funext i
  obtain ⟨p, q, rfl⟩ : ∃ (p : Fin M) (q : Fin N), i = ix2 p q := ⟨i 0, i 1, eq_ix2 i⟩
  rw [addf_apply, Cert.LibHostRead.bcast_row_wide_apply d2 hd0 hd1 h2, Cert.LibHostRead.bcast_row_apply d1 hd h1]
  rfl

/-! ## The accelerator's spelling: every bias is a one-row matrix -/

/-- The vector a one-row matrix holds. -/
def rowOf {N : Nat} (v : (⟨2, ![1, N]⟩ : Shape).Idx → EReal) : (⟨1, ![N]⟩ : Shape).Idx → EReal :=
  fun j => v (ix2 (0 : Fin 1) (j 0))

/-- The accelerator's broadcast of a row `[1, b]` to `[a, b]` reads, at `(i, c)`, the row at `c`. -/
theorem broadcastTo_row_apply {α : Type} {a b : Nat} (v : (⟨2, ![1, b]⟩ : Shape).Idx → α)
    (h : (⟨2, ![1, b]⟩ : Shape).Broadcasts ⟨2, ![a, b]⟩) (i : Fin a) (c : Fin b) :
    broadcastTo ⟨2, ![a, b]⟩ v h (ix2 i c) = v (ix2 (0 : Fin 1) c) := by
  refine broadcastTo_apply v h (ix2 i c) (ix2 (0 : Fin 1) c) fun ax => ?_
  match ax with
  | ⟨0, _⟩ =>
    show (0 : ℕ) = if (1 : ℕ) = 1 then 0 else _
    rw [if_pos rfl]
  | ⟨1, _⟩ =>
    show c.val = if b = 1 then 0 else c.val
    split
    · have := c.isLt; omega
    · rfl

/-- A one-row bias broadcast over the rows, added, and the maximum taken with a broadcast scalar zero: `br`. -/
theorem kernel_br {M N : Nat} (hb : (⟨2, ![1, N]⟩ : Shape).Broadcasts ⟨2, ![M, N]⟩)
    (a : FVec Ideal ⟨2, ![M, N]⟩ .f32) (b : FVec Ideal ⟨2, ![1, N]⟩ .f32) :
    maximumf (addf a (broadcastTo ⟨2, ![M, N]⟩ b hb))
        (broadcast ⟨2, ![M, N]⟩ (Scalar.ofBits (F := Ideal) .f32 0x00000000#32))
      = br a (rowOf b) := by
  funext i
  obtain ⟨p, q, rfl⟩ : ∃ (p : Fin M) (q : Fin N), i = ix2 p q := ⟨i 0, i 1, eq_ix2 i⟩
  rw [maximumf_apply, addf_apply, broadcastTo_row_apply b hb, broadcast_apply]
  rfl

/-- A one-row bias broadcast over the rows and added: `ab`. -/
theorem kernel_ab {M N : Nat} (hb : (⟨2, ![1, N]⟩ : Shape).Broadcasts ⟨2, ![M, N]⟩)
    (a : FVec Ideal ⟨2, ![M, N]⟩ .f32) (b : FVec Ideal ⟨2, ![1, N]⟩ .f32) :
    addf a (broadcastTo ⟨2, ![M, N]⟩ b hb) = ab a (rowOf b) := by
  funext i
  obtain ⟨p, q, rfl⟩ : ∃ (p : Fin M) (q : Fin N), i = ix2 p q := ⟨i 0, i 1, eq_ix2 i⟩
  rw [addf_apply, broadcastTo_row_apply b hb]
  rfl

end Cert.Lib.Mlp

end
-- ==== Proof.KernelBody.lean ====
/-
  The kernel body's one store, as a function of the blocks it loads.

  At a grid point the body loads a block of 8192 feature rows, the three weight matrices and the three one-row
  biases, and stores
      (max (max (x·W₁ + b₁, 0)·W₂ + b₂, 0))·W₃ + b₃ .
  Each of the three products runs into a zero accumulator, so at the exact values it is the plain matrix product;
  the two changes of float format between the layers are the identity on the extended reals.  Hence the stored
  value is the three-layer network of the loaded blocks, every bias being the vector its one-row matrix holds.
-/
import proofs.«103764_j17154099380948_2_alg».proof.Proof.Gen.KernelIdeal.Skeleton
import proofs.«103764_j17154099380948_2_alg».proof.Proof.LibMlp
import proofs.«103764_j17154099380948_2_alg».proof.Proof.LibExactFormat

noncomputable section

namespace Cert.KernelIdeal.Body

open Cert.KernelIdeal Cert.KernelIdeal.Gen Idealize.ShloMosaic Idealize.ShloMosaic.ValueIdx
open Cert.Lib.PlainDot Cert.Lib.BiasRelu Cert.Lib.Mlp

/-- The three products' dimension numbers are the plain ones: contract the left operand's columns with the right
    operand's rows. -/
theorem dims1 : dot_S8192x64_S64x256_S8192x256_1_0_0_1_n_n = DotDims.plain 8192 64 256 := rfl
theorem dims2 : dot_S8192x256_S256x256_S8192x256_1_0_0_1_n_n = DotDims.plain 8192 256 256 := rfl
theorem dims3 : dot_S8192x256_S256x3_S8192x3_1_0_0_1_n_n = DotDims.plain 8192 256 3 := rfl

/-- The stored value is the three-layer network of the loaded blocks. -/
theorem payload (x0 : Vec Ideal S8192x64 .bf16) (x1 : Vec Ideal S64x256 .bf16) (x2 : Vec Ideal S1x256 .f32)
    (x3 : Vec Ideal S256x256 .bf16) (x4 : Vec Ideal S1x256 .f32) (x5 : Vec Ideal S256x3 .bf16) (x6 : Vec Ideal S1x3 .f32) :
    k0_pay1 (F := Ideal) x0 x1 x2 x3 x4 x5 x6 = mlp3 x0 x1 (rowOf x2) x3 (rowOf x4) x5 (rowOf x6) := by
  unfold k0_pay1 mlp3
  simp only [shapeCast_self, Cert.Lib.ExactFormat.narrow_id, dims1, dims2, dims3, matmul_zero, kernel_br]
  rw [kernel_ab]

end Cert.KernelIdeal.Body

end
-- ==== Proof.KernelValue.lean ====
/-
  The kernel's result array after the run: the three-layer network of the sampled features, on the whole array.

  The grid has 128 points; point `t` stages rows `8192·t … 8192·t + 8191` of the feature array, the whole of each
  weight matrix and each one-row bias, and writes back rows `8192·t … 8192·t + 8191` of the result.  The body stores
  the network of the staged blocks; the network is local in the row, so what point `t` writes back is block `t` of the
  network of the whole feature array.  The 128 blocks cover the result array (row `r` lies in block `r / 8192`), so the
  array ends holding that network everywhere.
-/
import proofs.«103764_j17154099380948_2_alg».proof.Proof.Gen.KernelIdeal.Value
import proofs.«103764_j17154099380948_2_alg».proof.Proof.KernelArrays
import proofs.«103764_j17154099380948_2_alg».proof.Proof.KernelBody
import proofs.«103764_j17154099380948_2_alg».proof.Proof.LibMlp
import Idealize.ShloMosaic.Lib.Pipeline.Value
import Idealize.ShloMosaic.Lib.ValueIdx

set_option maxRecDepth 16384

noncomputable section

namespace Cert.KernelIdeal.Result

open Cert.KernelIdeal Cert.KernelIdeal.Gen Cert.KernelIdeal.Arrays Idealize.ShloMosaic Idealize.ShloMosaic.TcCoe Idealize.SL.Sem
open Idealize.ShloMosaic.Pipeline (Dat)
open Idealize.ShloMosaic.ValueIdx Cert.Lib.Mlp

variable (m : (ℓ : Loc nD τ sig) → Buf (Elt Ideal) ℓ) (ρ : Dev nD → PrngReg)

/-- The network of the sampled features with the argument weights and biases: what the result array ends holding. -/
def result (c : Dev nD) : S1048576x3.Idx → EReal :=
  mlp3 (feats m c) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

theorem hz : (![0, 0] : Fin 2 → Nat) = fun _ => 0 := funext fun a => by fin_cases a <;> rfl

/-- The printed index maps, decided over the grid: the feature window and the result window sit at block row `t`,
    every other window at its one block. -/
theorem idx_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## One entry of the stored block -/

/-- The body's stored value at `j` is the network of the whole feature array at `i`, when row `j 0` of the staged
    feature block is row `i 0` of the feature array, the two indices name the same column, and the staged weights and
    biases are the whole ones. -/
theorem point_value (x0 : S8192x64.Idx → EReal) (x1 : S64x256.Idx → EReal) (x2 : S1x256.Idx → EReal)
    (x3 : S256x256.Idx → EReal) (x4 : S1x256.Idx → EReal) (x5 : S256x3.Idx → EReal) (x6 : S1x3.Idx → EReal)
    (f : S1048576x64.Idx → EReal) (w1 : S64x256.Idx → EReal) (b1 : S256.Idx → EReal) (w2 : S256x256.Idx → EReal)
    (b2 : S256.Idx → EReal) (w3 : S256x3.Idx → EReal) (b3 : S3.Idx → EReal)
    (j : S8192x3.Idx) (i : S1048576x3.Idx) (hcol : (i 1).val = (j 1).val)
    (h0 : ∀ k : Fin 64, x0 (ix2 (j 0) k) = f (ix2 (i 0) k))
    (h1 : x1 = w1) (h2 : rowOf x2 = b1) (h3 : x3 = w2) (h4 : rowOf x4 = b2) (h5 : x5 = w3) (h6 : rowOf x6 = b3) :
    k0_pay1 (F := Ideal) x0 x1 x2 x3 x4 x5 x6 j = mlp3 f w1 b1 w2 b2 w3 b3 i := by
  subst h1 h2 h3 h4 h5 h6
  have hq : (i 1 : Fin 3) = j 1 := Fin.ext hcol
  rw [Cert.KernelIdeal.Body.payload]
  calc mlp3 x0 x1 (rowOf x2) x3 (rowOf x4) x5 (rowOf x6) j
      = mlp3 x0 x1 (rowOf x2) x3 (rowOf x4) x5 (rowOf x6) (ix2 (j 0) (j 1)) := congrArg _ (eq_ix2 j)
    _ = mlp3 f x1 (rowOf x2) x3 (rowOf x4) x5 (rowOf x6) (ix2 (i 0) (j 1)) :=
        mlp3_row f x0 x1 (rowOf x2) x3 (rowOf x4) x5 (rowOf x6) (i 0) (j 0) (j 1) h0
    _ = mlp3 f x1 (rowOf x2) x3 (rowOf x4) x5 (rowOf x6) i := by rw [← hq]; exact (congrArg _ (eq_ix2 i)).symm

/-! ## The staged blocks -/

/-- Row `p` of the feature block at point `t` is row `8192·t + p` of the sampled features. -/
theorem blk_feats (c : Dev nD) (t : Fin cfg0.N) (p : Fin 8192) (r : Fin 1048576) (hr : r.val = t.val * 8192 + p.val)
    (k : Fin 64) : (iblk m c 0 t : S8192x64.Idx → EReal) (ix2 p k) = feats m c (ix2 r k) := by
  obtain ⟨-, -, e0, e1, -⟩ := idx_facts t
  show V m c main_call0_v118 (((cfg0.win 0).blk t).view.emb (ix2 p k)) = _
  refine (congrFun (V_feats m c) _).trans (congrArg _ ?_)
  funext a; apply Fin.ext
  match a with
  | ⟨0, _⟩ => show win0_0.index t (0 : Fin 2) * 8192 + 1 * p.val = r.val; omega
  | ⟨1, _⟩ => show win0_0.index t (1 : Fin 2) * 64 + 1 * k.val = k.val; omega

/-- The staged first weight matrix is the argument, at every point. -/
theorem blk_w1 (c : Dev nD) (t : Fin cfg0.N) : (iblk m c 1 t : S64x256.Idx → EReal) = (m ((c : Thread nD τ).loc main_arg2)) := by
  obtain ⟨-, -, -, -, e0, e1, -⟩ := idx_facts t
  funext y
  show V m c main_call0_v119 (((cfg0.win 1).blk t).view.emb y) = _
  refine (congrFun (V_w1 m c) _).trans (congrArg _ ?_)
  funext a; apply Fin.ext
  match a with
  | ⟨0, _⟩ => show win0_1.index t (0 : Fin 2) * 64 + 1 * (y 0).val = (y 0).val; omega
  | ⟨1, _⟩ => show win0_1.index t (1 : Fin 2) * 256 + 1 * (y 1).val = (y 1).val; omega

/-- The staged second weight matrix is the argument, at every point. -/
theorem blk_w2 (c : Dev nD) (t : Fin cfg0.N) : (iblk m c 3 t : S256x256.Idx → EReal) = (m ((c : Thread nD τ).loc main_arg4)) := by
  obtain ⟨-, -, -, -, -, -, -, -, e0, e1, -⟩ := idx_facts t
  funext y
  show V m c main_call0_v120 (((cfg0.win 3).blk t).view.emb y) = _
  refine (congrFun (V_w2 m c) _).trans (congrArg _ ?_)
  funext a; apply Fin.ext
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- The staged third weight matrix is the argument, at every point. -/
theorem blk_w3 (c : Dev nD) (t : Fin cfg0.N) : (iblk m c 5 t : S256x3.Idx → EReal) = (m ((c : Thread nD τ).loc main_arg6)) := by
  obtain ⟨-, -, -, -, -, -, -, -, -, -, -, -, e0, e1, -⟩ := idx_facts t
  funext y
  show V m c main_call0_v121 (((cfg0.win 5).blk t).view.emb y) = _
  refine (congrFun (V_w3 m c) _).trans (congrArg _ ?_)
  funext a; apply Fin.ext
  match a with
  | ⟨0, _⟩ => show win0_5.index t (0 : Fin 2) * 256 + 1 * (y 0).val = (y 0).val; omega
  | ⟨1, _⟩ => show win0_5.index t (1 : Fin 2) * 3 + 1 * (y 1).val = (y 1).val; omega

/-- A vector reshaped to one row holds the vector. -/
theorem row_of_reshape {N : Nat} (v : (⟨1, ![N]⟩ : Shape).Idx → EReal) (h : (⟨1, ![N]⟩ : Shape).ShapeCasts ⟨2, ![1, N]⟩) :
    rowOf (shapeCast ⟨2, ![1, N]⟩ v h) = v := by
  funext jj
  show shapeCast ⟨2, ![1, N]⟩ v h (ix2 (0 : Fin 1) (jj 0)) = v jj
  refine shapeCast_apply v h _ jj ?_
  rw [Shape.rowMajor_val_one, Shape.rowMajor_val_two]
  show (jj 0).val = (0 : ℕ) * N + (jj 0).val
  omega

/-- The first staged bias row holds the argument vector, at every point. -/
theorem blk_b1 (c : Dev nD) (t : Fin cfg0.N) : rowOf (iblk m c 2 t : S1x256.Idx → EReal) = (m ((c : Thread nD τ).loc main_arg3)) := by
  obtain ⟨-, -, -, -, -, -, e0, e1, -⟩ := idx_facts t
  have e : (iblk m c 2 t : S1x256.Idx → EReal) = shapeCast S1x256 (m ((c : Thread nD τ).loc main_arg3)) shapeCasts_S256_S1x256 := by
    funext y
    show V m c main_call0_v122 (((cfg0.win 2).blk t).view.emb y) = _
    refine (congrFun (V_b1 m c) _).trans (congrArg _ ?_)
    funext a; apply Fin.ext
    match a with
    | ⟨0, _⟩ => show win0_2.index t (0 : Fin 2) * 1 + 1 * (y 0).val = (y 0).val; omega
    | ⟨1, _⟩ => show win0_2.index t (1 : Fin 2) * 256 + 1 * (y 1).val = (y 1).val; omega
  rw [e]
  exact row_of_reshape _ _

/-- The second staged bias row holds the argument vector, at every point. -/
theorem blk_b2 (c : Dev nD) (t : Fin cfg0.N) : rowOf (iblk m c 4 t : S1x256.Idx → EReal) = (m ((c : Thread nD τ).loc main_arg5)) := by
  obtain ⟨-, -, -, -, -, -, -, -, -, -, e0, e1, -⟩ := idx_facts t
  have e : (iblk m c 4 t : S1x256.Idx → EReal) = shapeCast S1x256 (m ((c : Thread nD τ).loc main_arg5)) shapeCasts_S256_S1x256 := by
    funext y
    show V m c main_call0_v123 (((cfg0.win 4).blk t).view.emb y) = _
    refine (congrFun (V_b2 m c) _).trans (congrArg _ ?_)
    funext a; apply Fin.ext
    match a with
    | ⟨0, _⟩ => show win0_4.index t (0 : Fin 2) * 1 + 1 * (y 0).val = (y 0).val; omega
    | ⟨1, _⟩ => show win0_4.index t (1 : Fin 2) * 256 + 1 * (y 1).val = (y 1).val; omega
  rw [e]
  exact row_of_reshape _ _

/-- The third staged bias row holds the argument vector, at every point. -/
theorem blk_b3 (c : Dev nD) (t : Fin cfg0.N) : rowOf (iblk m c 6 t : S1x3.Idx → EReal) = (m ((c : Thread nD τ).loc main_arg7)) := by
  obtain ⟨-, -, -, -, -, -, -, -, -, -, -, -, -, -, e0, e1⟩ := idx_facts t
  have e : (iblk m c 6 t : S1x3.Idx → EReal) = shapeCast S1x3 (m ((c : Thread nD τ).loc main_arg7)) shapeCasts_S3_S1x3 := by
    funext y
    show V m c main_call0_v124 (((cfg0.win 6).blk t).view.emb y) = _
    refine (congrFun (V_b3 m c) _).trans (congrArg _ ?_)
    funext a; apply Fin.ext
    match a with
    | ⟨0, _⟩ => show win0_6.index t (0 : Fin 2) * 1 + 1 * (y 0).val = (y 0).val; omega
    | ⟨1, _⟩ => show win0_6.index t (1 : Fin 2) * 3 + 1 * (y 1).val = (y 1).val; omega
  rw [e]
  exact row_of_reshape _ _

/-! ## What a point writes back, and the whole array -/

/-- What point `t` writes back is block `t` of the network of the whole feature array. -/
theorem flushed_eq (c : Dev nD) (t : Fin cfg0.N) :
    (dats m 0 c).flushed 7 t = ((cfg0.win 7).blk t).view.read (Elt Ideal) (result m c) := by
  rw [Cert.KernelIdeal.Value.flushed7]
  unfold Gen.out0_7
  rw [View.canon_unit_zero hz]
  simp only [View.ld_unit_zero (S := S8192x64) hz, View.ld_unit_zero (S := S64x256) hz, View.ld_unit_zero (S := S1x256) hz,
    View.ld_unit_zero (S := S256x256) hz, View.ld_unit_zero (S := S256x3) hz, View.ld_unit_zero (S := S1x3) hz]
  obtain ⟨e0, e1, -⟩ := idx_facts t
  funext j
  show k0_pay1 (F := Ideal) (iblk m c 0 t) (iblk m c 1 t) (iblk m c 2 t) (iblk m c 3 t) (iblk m c 4 t) (iblk m c 5 t) (iblk m c 6 t) j
    = result m c (((cfg0.win 7).blk t).view.emb j)
  have hj0 : (j 0).val < 8192 := (j 0).isLt
  have hrow : ((((cfg0.win 7).blk t).view.emb j : S1048576x3.Idx) 0).val = t.val * 8192 + (j 0).val := by
    show win0_7.index t (0 : Fin 2) * 8192 + 1 * (j 0).val = _
    omega
  have hcol : ((((cfg0.win 7).blk t).view.emb j : S1048576x3.Idx) 1).val = (j 1).val := by
    show win0_7.index t (1 : Fin 2) * 3 + 1 * (j 1).val = _
    omega
  exact point_value (iblk m c 0 t) (iblk m c 1 t) (iblk m c 2 t) (iblk m c 3 t) (iblk m c 4 t) (iblk m c 5 t) (iblk m c 6 t)
    (feats m c) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    j (((cfg0.win 7).blk t).view.emb j) hcol
    (fun k => blk_feats m c t (j 0) ((((cfg0.win 7).blk t).view.emb j : S1048576x3.Idx) 0) hrow k)
    (blk_w1 m c t) (blk_b1 m c t) (blk_w2 m c t) (blk_b2 m c t) (blk_w3 m c t) (blk_b3 m c t)

/-- An index of the result array is in point `t`'s block iff each coordinate is in the block's range on its axis. -/
theorem mem_blk (t : Fin cfg0.N) (i : S1048576x3.Idx) :
    i ∈ ((cfg0.win 7).blk t).view.set ↔ ∀ a : Fin 2, win0_7.index t a * S8192x3.size a ≤ (i a).val ∧ (i a).val < win0_7.index t a * S8192x3.size a + S8192x3.size a := by
  show i ∈ ((View.whole main_v0).slice (win0_7.rect t)).set ↔ _
  rw [View.set_slice_whole, Rect.mem_set_unit]
  exact Iff.rfl

/-- Every index of the result array lies in some point's block: row `r` in block `r / 8192`. -/
theorem cover (i : S1048576x3.Idx) : ∃ t : Fin cfg0.N, (cfg0.win 7).flush t = true ∧ i ∈ ((cfg0.win 7).blk t).view.set := by
  have hi0 : (i 0).val < 1048576 := (i 0).isLt
  have hi1 : (i 1).val < 3 := (i 1).isLt
  have hN : cfg0.N = 128 := N_0
  have ht : (i 0).val / 8192 < cfg0.N := by rw [hN]; omega
  obtain ⟨e0, e1, -⟩ := idx_facts ⟨(i 0).val / 8192, ht⟩
  refine ⟨⟨(i 0).val / 8192, ht⟩, flush0_7 _, ?_⟩
  rw [mem_blk]
  intro a
  match a with
  | ⟨0, _⟩ =>
    show win0_7.index ⟨(i 0).val / 8192, ht⟩ (0 : Fin 2) * 8192 ≤ (i 0).val ∧ (i 0).val < win0_7.index ⟨(i 0).val / 8192, ht⟩ (0 : Fin 2) * 8192 + 8192
    rw [e0]
    show (i 0).val / 8192 * 8192 ≤ (i 0).val ∧ (i 0).val < (i 0).val / 8192 * 8192 + 8192
    omega
  | ⟨1, _⟩ =>
    show win0_7.index ⟨(i 0).val / 8192, ht⟩ (1 : Fin 2) * 3 ≤ (i 1).val ∧ (i 1).val < win0_7.index ⟨(i 0).val / 8192, ht⟩ (1 : Fin 2) * 3 + 3
    omega

/-- The result array after the run is the network of the sampled features. -/
theorem final (c : Dev nD) : (dats m 0 c).arrAt 7 cfg0.N = result m c :=
  (dats m 0 c).arrAt_eq_of_cover 7 (result m c) (fun t _ => flushed_eq m c t) cover

/-- The kernel's run, read: the result array at the network of the sampled features, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.Result

end
-- ==== Proof.RefSide.lean ====
/-
  The reference's result as the three-layer network of its sampled features.

  After the bilinear sampling the reference applies, on the whole array of 1048576 feature rows,
      h₁ = max (f·W₁ + b₁, 0),  h₂ = max (h₁·W₂ + b₂, 0),  result = h₂·W₃ + b₃ ,
  each product a `dot_general` with the plain dimension numbers, each bias made a row and spread over the rows, each
  rectifier a maximum with a broadcast zero.  At the exact values this is the network `mlp3` of the sampled features.
-/
import proofs.«103764_j17154099380948_2_alg».proof.Proof.Gen.ReferenceIdeal.Read
import proofs.«103764_j17154099380948_2_alg».proof.Proof.LibMlp

noncomputable section

namespace Cert.ReferenceIdeal.Decoder

open Cert.ReferenceIdeal Cert.ReferenceIdeal.Gen Cert.ReferenceIdeal.Read Idealize.ShloMosaic Idealize.ShloMosaic.ValueIdx
open Cert.Lib.PlainDot Cert.Lib.BiasRelu Cert.Lib.Mlp

/-- The three products' dimension numbers are the plain ones. -/
theorem dims1 : dot_S1048576x64_S64x256_S1048576x256_1_0_0_1_n_n = DotDims.plain 1048576 64 256 := rfl
theorem dims2 : dot_S1048576x256_S256x256_S1048576x256_1_0_0_1_n_n = DotDims.plain 1048576 256 256 := rfl
theorem dims3 : dot_S1048576x256_S256x3_S1048576x3_1_0_0_1_n_n = DotDims.plain 1048576 256 3 := rfl

/-- The reference's result is the network of its sampled features (the stage `val_main_v112`). -/
theorem result_eq (x0 : (⟨S1048576x2, .f32⟩ : BufTy).Contents (Elt Ideal)) (x1 : (⟨S512x512x64, .f32⟩ : BufTy).Contents (Elt Ideal))
    (x2 : (⟨S64x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x3, .f32⟩ : BufTy).Contents (Elt Ideal)) (x7 : (⟨S3, .f32⟩ : BufTy).Contents (Elt Ideal)) :
    val_main_v126 (F := Ideal) x0 x1 x2 x3 x4 x5 x6 x7 = mlp3 (val_main_v112 (F := Ideal) x0 x1) x2 x3 x4 x5 x6 x7 := by
  unfold val_main_v126 val_main_v125 val_main_v124 val_main_v123 val_main_v122 val_main_call3_v0 val_main_call3_cst
    val_main_v121 val_main_v120 val_main_v119 val_main_v118 val_main_v117 val_main_call2_v0 val_main_call2_cst
    val_main_v116 val_main_v115 val_main_v114 val_main_v113 mlp3
  generalize val_main_v112 (F := Ideal) x0 x1 = f
  simp only [dims1, dims2, dims3, Cert.Lib.PlainDot.dotGeneral,
    host_spelling ![0, 1] rfl rfl bcast_S1x256_S1048576x256_0_1 ![1] rfl bcast_S256_S1x256_1 ![] bcast_S_S1048576x256]
  rw [host_ab ![0, 1] rfl rfl bcast_S1x3_S1048576x3_0_1 ![1] rfl bcast_S3_S1x3_1]

end Cert.ReferenceIdeal.Decoder

end
-- ==== Proof.lean ====
/-
  A neural field: bilinear sampling of a feature grid followed by a three-layer perceptron, tiled over the query
  points, against the same computation on whole arrays.

  Both programs first sample the `[512, 512, 64]` feature grid bilinearly at the `1048576` query coordinates, with
  the same host operations in the same order; the kernel program narrows the grid to a shorter float format before
  gathering and widens the gathered rows back, which is the identity at the exact values.  The kernel then evaluates
      (max (max (f·W₁ + b₁, 0)·W₂ + b₂, 0))·W₃ + b₃
  tile by tile, 8192 rows of the sampled features `f` at each of 128 grid points, every product into a zero
  accumulator; the reference evaluates the same expression on all rows at once.  Each product is the plain sum
  `∑ₖ l(i,k)·r(k,j)` on both sides, and every entry of a row of the result reads the same row of `f` only, so the
  tiles are the blocks of rows of the whole result, and they cover it.  No algebraic law beyond that locality is
  used, so the inputs' finiteness is never opened.

  The three frames are the generated ones (the reference's is its generated run with the result dropped); the
  idealization rewrote nothing, so `preserves` is trivial.
-/
import proofs.«103764_j17154099380948_2_alg».proof.Defs
import proofs.«103764_j17154099380948_2_alg».proof.Proof.Gen.Kernel
import proofs.«103764_j17154099380948_2_alg».proof.Proof.Gen.Kernel.Skeleton
import proofs.«103764_j17154099380948_2_alg».proof.Proof.Gen.Kernel.Launch
import proofs.«103764_j17154099380948_2_alg».proof.Proof.Gen.Kernel.Points
import proofs.«103764_j17154099380948_2_alg».proof.Proof.Gen.Kernel.Frame
import proofs.«103764_j17154099380948_2_alg».proof.Proof.Gen.KernelIdeal
import proofs.«103764_j17154099380948_2_alg».proof.Proof.Gen.KernelIdeal.Skeleton
import proofs.«103764_j17154099380948_2_alg».proof.Proof.Gen.KernelIdeal.Launch
import proofs.«103764_j17154099380948_2_alg».proof.Proof.Gen.KernelIdeal.Points
import proofs.«103764_j17154099380948_2_alg».proof.Proof.Gen.KernelIdeal.Frame
import proofs.«103764_j17154099380948_2_alg».proof.Proof.Gen.KernelIdeal.Value
import proofs.«103764_j17154099380948_2_alg».proof.Proof.Gen.ReferenceIdeal
import proofs.«103764_j17154099380948_2_alg».proof.Proof.Gen.ReferenceIdeal.Run
import proofs.«103764_j17154099380948_2_alg».proof.Proof.Gen.ReferenceIdeal.Read
import proofs.«103764_j17154099380948_2_alg».proof.Proof.Gen.Pre_finite_inputs
import proofs.«103764_j17154099380948_2_alg».proof.Proof.KernelValue
import proofs.«103764_j17154099380948_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the network of the sampled features of the (agreeing) arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v126_eq, Cert.ReferenceIdeal.Decoder.result_eq, a0, a1, a2, a3, a4, a5, a6, a7]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
